-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x512 : Shape := ⟨2, ![64, 512]⟩
abbrev S512x1024 : Shape := ⟨2, ![512, 1024]⟩
abbrev S1024 : Shape := ⟨1, ![1024]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S1024x64 .f32) (main_arg1 : FVec F S64x512 .f32) (main_arg2 : FVec F S512x1024 .f32) (main_arg3 : FVec F S1024 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S1024x64 : Shape := ⟨2, ![1024, 64]⟩
abbrev S64x512 : Shape := ⟨2, ![64, 512]⟩
abbrev S512x1024 : Shape := ⟨2, ![512, 1024]⟩
abbrev S1024 : Shape := ⟨1, ![1024]⟩
abbrev S64x1024 : Shape := ⟨2, ![64, 1024]⟩
abbrev S1x1024 : Shape := ⟨2, ![1, 1024]⟩
abbrev S32x1024 : Shape := ⟨2, ![32, 1024]⟩
abbrev S32x512 : Shape := ⟨2, ![32, 512]⟩
abbrev S32x128 : Shape := ⟨2, ![32, 128]⟩
abbrev S32x1024x1 : Shape := ⟨3, ![32, 1024, 1]⟩
abbrev S32x1x128 : Shape := ⟨3, ![32, 1, 128]⟩
abbrev S32x1024x128 : Shape := ⟨3, ![32, 1024, 128]⟩
abbrev S1x50 : Shape := ⟨2, ![1, 50]⟩
abbrev S50 : Shape := ⟨1, ![50]⟩
abbrev S1x50x1 : Shape := ⟨3, ![1, 50, 1]⟩
abbrev S32x1x1024 : Shape := ⟨3, ![32, 1, 1024]⟩
abbrev S32x50x1024 : Shape := ⟨3, ![32, 50, 1024]⟩
abbrev S32x50 : Shape := ⟨2, ![32, 50]⟩
abbrev S32x50x1 : Shape := ⟨3, ![32, 50, 1]⟩

abbrev nBuf : Space → Nat
  | .hbm => 8
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S64x512, .f32⟩
  | .hbm, ⟨2, _⟩ => ⟨S512x1024, .f32⟩
  | .hbm, ⟨3, _⟩ => ⟨S1024, .f32⟩
  | .hbm, ⟨4, _⟩ => ⟨S64x1024, .f32⟩
  | .hbm, ⟨5, _⟩ => ⟨S1x1024, .f32⟩
  | .hbm, ⟨6, _⟩ => ⟨S64x1024, .f32⟩
  | .hbm, ⟨7, _⟩ => ⟨S1024x64, .f32⟩
  | .local _ .vmem, ⟨0, _⟩ => ⟨S32x1024, .f32⟩
  | .local _ .vmem, ⟨1, _⟩ => ⟨S32x1024, .f32⟩
  | .local _ .vmem, ⟨2, _⟩ => ⟨S32x512, .f32⟩
  | .local _ .vmem, ⟨3, _⟩ => ⟨S32x512, .f32⟩
  | .local _ .vmem, ⟨4, _⟩ => ⟨S512x1024, .f32⟩
  | .local _ .vmem, ⟨5, _⟩ => ⟨S1x1024, .f32⟩
  | .local _ .vmem, ⟨6, _⟩ => ⟨S32x1024, .f32⟩
  | .local _ .vmem, ⟨7, _⟩ => ⟨S32x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x64_S64x1024_1_0 : S1024x64.Transposes [1, 0] S64x1024
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x512_S32x512_0_0 : ∀ a, (![0, 0] : Fin 2 → Nat) a + S32x512.size a ≤ S32x512.size a
  h_S32x512 : 0 < S32x512.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  slices_S32x1024_o0_0_S32x128 : S32x1024.Slices ![0, 0] S32x128
  shapeCasts_S32x1024_S32x1024x1 : S32x1024.ShapeCasts S32x1024x1
  shapeCasts_S32x128_S32x1x128 : S32x128.ShapeCasts S32x1x128
  broadcasts_S32x1024x1_S32x1024x128 : S32x1024x1.Broadcasts S32x1024x128
  broadcasts_S32x1x128_S32x1024x128 : S32x1x128.Broadcasts S32x1024x128
  reduces_S32x1024x128_S32x1024 : S32x1024x128.Reduces [2] S32x1024
  slices_S32x1024_o0_128_S32x128 : S32x1024.Slices ![0, 128] S32x128
  slices_S32x1024_o0_256_S32x128 : S32x1024.Slices ![0, 256] S32x128
  slices_S32x1024_o0_384_S32x128 : S32x1024.Slices ![0, 384] S32x128
  slices_S32x1024_o0_512_S32x128 : S32x1024.Slices ![0, 512] S32x128
  slices_S32x1024_o0_640_S32x128 : S32x1024.Slices ![0, 640] S32x128
  slices_S32x1024_o0_768_S32x128 : S32x1024.Slices ![0, 768] S32x128
  slices_S32x1024_o0_896_S32x128 : S32x1024.Slices ![0, 896] S32x128
  iota_S1x50_d1_w32 : S1x50.Iotas .tc 32 [1]
  shapeCasts_S1x50_S50 : S1x50.ShapeCasts S50
  shapeCasts_S50_S1x50x1 : S50.ShapeCasts S1x50x1
  shapeCasts_S32x1024_S32x1x1024 : S32x1024.ShapeCasts S32x1x1024
  broadcasts_S1x50x1_S32x50x1024 : S1x50x1.Broadcasts S32x50x1024
  broadcasts_S32x1x1024_S32x50x1024 : S32x1x1024.Broadcasts S32x50x1024
  reduces_S32x50x1024_S32x50 : S32x50x1024.Reduces [2] S32x50
  shapeCasts_S32x50_S32x50x1 : S32x50.ShapeCasts S32x50x1
  broadcasts_S32x50x1_S32x50x1024 : S32x50x1.Broadcasts S32x50x1024
  reduces_S32x50x1024_S32x1024 : S32x50x1024.Reduces [1] S32x1024
  transposes_S64x1024_S1024x64_1_0 : S64x1024.Transposes [1, 0] S1024x64
  dot_S32x1024_S512x1024_S32x512_1_1_0_0_n_n_wf : DotDims.WF S32x1024 S512x1024 S32x512 [1] [1] [0] [0] [] []
  dot_S32x512_S512x1024_S32x1024_1_0_0_1_n_n_wf : DotDims.WF S32x512 S512x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S64x1024.size a
  hwx0_0 : ∀ i : grid0.Coords, EltTy.bits .f32 = 32 ∨ (Rect.block (s := S64x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S64x512.size a
  hwx0_1 : ∀ i : grid0.Coords, EltTy.bits .f32 = 32 ∨ (Rect.block (s := S64x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S64x1024.size a
  hwx0_4 : ∀ i : grid0.Coords, EltTy.bits .f32 = 32 ∨ (Rect.block (s := S64x1024) S32x1024.size (cc0_transform_4 i) (hinb0_4 i)).WholeWords (EltTy.packing .f32)

variable [Facts₀]

def dot_S32x1024_S512x1024_S32x512_1_1_0_0_n_n : DotDims S32x1024 S512x1024 S32x512 where
  lhsContracting := [1]
  rhsContracting := [1]
  lhsNonContracting := [0]
  rhsNonContracting := [0]
  lhsBatch := []
  rhsBatch := []
  wf := dot_S32x1024_S512x1024_S32x512_1_1_0_0_n_n_wf
def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf

abbrev win0_0 : Pipeline.Window sig grid0 :=
  Pipeline.Window.ofSpec (Memref.whole main_v0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x512 : Shape := ⟨2, ![64, 512]⟩
abbrev S512x1024 : Shape := ⟨2, ![512, 1024]⟩
abbrev S1024 : Shape := ⟨1, ![1024]⟩
abbrev S1024x512 : Shape := ⟨2, ![1024, 512]⟩
abbrev S512x64 : Shape := ⟨2, ![512, 64]⟩
abbrev S_ : Shape := ⟨0, ![]⟩
abbrev S1024x1 : Shape := ⟨2, ![1024, 1]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S50 : Shape := ⟨1, ![50]⟩
abbrev S1x50x1 : Shape := ⟨3, ![1, 50, 1]⟩
abbrev S64x50x1024 : Shape := ⟨3, ![64, 50, 1024]⟩
abbrev S64x50 : Shape := ⟨2, ![64, 50]⟩
abbrev S64x50x1 : Shape := ⟨3, ![64, 50, 1]⟩

abbrev nBuf : Space → Nat
  | .hbm => 71
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x512, .f32⟩
  | .hbm, ⟨2, _⟩ => ⟨S512x1024, .f32⟩
  | .hbm, ⟨3, _⟩ => ⟨S1024, .f32⟩
  | .hbm, ⟨4, _⟩ => ⟨S1024x512, .f32⟩
  | .hbm, ⟨5, _⟩ => ⟨S512x64, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x512, .f32⟩
  | .hbm, ⟨12, _⟩ => ⟨S512x64, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x1, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S64x1024, .f32⟩
  | .hbm, ⟨23, _⟩ => ⟨S64x1024x1, .f32⟩
  | .hbm, ⟨24, _⟩ => ⟨S64x1x1024, .f32⟩
  | .hbm, ⟨25, _⟩ => ⟨S64x1024x1024, .f32⟩
  | .hbm, ⟨26, _⟩ => ⟨S64x1024x1024, .f32⟩
  | .hbm, ⟨27, _⟩ => ⟨S64x1024x1024, .f32⟩
  | .hbm, ⟨28, _⟩ => ⟨S64x1024x1024, .f32⟩
  | .hbm, ⟨29, _⟩ => ⟨S_, .f32⟩
  | .hbm, ⟨30, _⟩ => ⟨S64x1024, .f32⟩
  | .hbm, ⟨31, _⟩ => ⟨S50, .i32⟩
  | .hbm, ⟨32, _⟩ => ⟨S_, .i32⟩
  | .hbm, ⟨33, _⟩ => ⟨S50, .i32⟩
  | .hbm, ⟨34, _⟩ => ⟨S50, .i32⟩
  | .hbm, ⟨35, _⟩ => ⟨S_, .i32⟩
  | .hbm, ⟨36, _⟩ => ⟨S50, .i32⟩
  | .hbm, ⟨37, _⟩ => ⟨S50, .i32⟩
  | .hbm, ⟨38, _⟩ => ⟨S_, .i32⟩
  | .hbm, ⟨39, _⟩ => ⟨S50, .i32⟩
  | .hbm, ⟨40, _⟩ => ⟨S50, .i32⟩
  | .hbm, ⟨41, _⟩ => ⟨S50, .f32⟩
  | .hbm, ⟨42, _⟩ => ⟨S1x50x1, .f32⟩
  | .hbm, ⟨43, _⟩ => ⟨S64x1x1024, .f32⟩
  | .hbm, ⟨44, _⟩ => ⟨S64x50x1024, .f32⟩
  | .hbm, ⟨45, _⟩ => ⟨S64x50x1024, .f32⟩
  | .hbm, ⟨46, _⟩ => ⟨S64x50x1024, .f32⟩
  | .hbm, ⟨47, _⟩ => ⟨S64x1x1024, .f32⟩
  | .hbm, ⟨48, _⟩ => ⟨S64x50x1024, .f32⟩
  | .hbm, ⟨49, _⟩ => ⟨S64x50x1024, .f32⟩
  | .hbm, ⟨50, _⟩ => ⟨S_, .f32⟩
  | .hbm, ⟨51, _⟩ => ⟨S64x50x1024, .f32⟩
  | .hbm, ⟨52, _⟩ => ⟨S64x50x1024, .f32⟩
  | .hbm, ⟨53, _⟩ => ⟨S_, .f32⟩
  | .hbm, ⟨54, _⟩ => ⟨S64x50, .f32⟩
  | .hbm, ⟨55, _⟩ => ⟨S_, .f32⟩
  | .hbm, ⟨56, _⟩ => ⟨S64x50, .f32⟩
  | .hbm, ⟨57, _⟩ => ⟨S64x50, .f32⟩
  | .hbm, ⟨58, _⟩ => ⟨S64x50x1, .f32⟩
  | .hbm, ⟨59, _⟩ => ⟨S64x50x1024, .f32⟩
  | .hbm, ⟨60, _⟩ => ⟨S64x50x1024, .f32⟩
  | .hbm, ⟨61, _⟩ => ⟨S64x50x1024, .f32⟩
  | .hbm, ⟨62, _⟩ => ⟨S_, .f32⟩
  | .hbm, ⟨63, _⟩ => ⟨S64x50, .f32⟩
  | .hbm, ⟨64, _⟩ => ⟨S64x50x1, .f32⟩
  | .hbm, ⟨65, _⟩ => ⟨S64x50x1024, .f32⟩
  | .hbm, ⟨66, _⟩ => ⟨S64x50x1024, .f32⟩
  | .hbm, ⟨67, _⟩ => ⟨S_, .f32⟩
  | .hbm, ⟨68, _⟩ => ⟨S64x1024, .f32⟩
  | .hbm, ⟨69, _⟩ => ⟨S1024x64, .f32⟩
  | .hbm, ⟨70, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S_S1024x64 : S_.BroadcastsInDim S1024x64 (![] : Fin 0 → Fin S1024x64.rank)
  transposes_S64x512_S512x64_1_0 : S64x512.Transposes [1, 0] S512x64
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S1024x64_S64x1024_1_0 : S1024x64.Transposes [1, 0] S64x1024
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S50 : S_.BroadcastsInDim S50 (![] : Fin 0 → Fin S50.rank)
  bcast_S50_S1x50x1_1 : S50.BroadcastsInDim S1x50x1 (![1] : Fin 1 → Fin S1x50x1.rank)
  bcast_S1x50x1_S64x50x1024_0_1_2 : S1x50x1.BroadcastsInDim S64x50x1024 (![0, 1, 2] : Fin 3 → Fin S64x50x1024.rank)
  bcast_S64x1x1024_S64x50x1024_0_1_2 : S64x1x1024.BroadcastsInDim S64x50x1024 (![0, 1, 2] : Fin 3 → Fin S64x50x1024.rank)
  bcast_S_S64x50x1024 : S_.BroadcastsInDim S64x50x1024 (![] : Fin 0 → Fin S64x50x1024.rank)
  reducesTo_S64x50x1024_S64x50_d2 : S64x50x1024.ReducesTo [2] S64x50
  bcast_S_S64x50 : S_.BroadcastsInDim S64x50 (![] : Fin 0 → Fin S64x50.rank)
  bcast_S64x50_S64x50x1_0_1 : S64x50.BroadcastsInDim S64x50x1 (![0, 1] : Fin 2 → Fin S64x50x1.rank)
  bcast_S64x50x1_S64x50x1024_0_1_2 : S64x50x1.BroadcastsInDim S64x50x1024 (![0, 1, 2] : Fin 3 → Fin S64x50x1024.rank)
  reducesTo_S64x50x1024_S64x1024_d1 : S64x50x1024.ReducesTo [1] S64x1024
  transposes_S64x1024_S1024x64_1_0 : S64x1024.Transposes [1, 0] S1024x64
  dot_S512x1024_S1024x64_S512x64_1_0_0_1_n_n_wf : DotDims.WF S512x1024 S1024x64 S512x64 [1] [0] [0] [1] [] []
  dot_S1024x512_S512x64_S1024x64_1_0_0_1_n_n_wf : DotDims.WF S1024x512 S512x64 S1024x64 [1] [0] [0] [1] [] []

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

class Facts : Prop extends Facts₀ where

variable [Facts]
-- ==== Proof.Spec.lean ====
/-
  The value both programs compute, as one function of the four argument arrays, and the one regrouping law between them.

  For one sample (a column `x` of X, the matching row `y` of Y) with the measurement matrix `A` and the weights `w`:
    * a gradient step      h[n] = x[n] − η · Σ_m (Σ_k x[k]·A[m,k]) · A[m,n] + η · Σ_m y[m]·A[m,n];
    * scores               z[n] = |w[n] · h[n]|;
    * spreads              c[i] = Σ_j |z[i] − z[j]|;
    * for each rank s < 50 the logits  ((1025 − 2(s+1)) · z[i] − c[i]) / τ, their maximum over i (started from −∞),
      the exponentials of the differences, and their normalisation by the sum over i;
    * the soft top-s mask  mask[i] = Σ_s of those normalised weights;
    * the result           mask[n] · h[n].
  The words η, τ and −∞ are the f32 words 0.1, 1.0 and −inf both programs spell; they are never evaluated. Every operation is
  the exact one on the extended reals, an absolute value being `max a (−a)`.

  The regrouping law: a sum over 1024 positions is the sum of its eight runs of 128 consecutive positions, in any commutative
  additive monoid (so for the extended reals, where nothing beyond commutativity and associativity of + is available).
-/
import Idealize.ShloMosaic.PureOps.Ideal
import Idealize.ShloMosaic.Lib.ValueIdx
import Mathlib.Algebra.BigOperators.Fin

noncomputable section

namespace Cert.SoftTopMask

open Idealize.ShloMosaic Idealize.ShloMosaic.ValueIdx

/-- The step size, as the f32 word for 0.1. -/
abbrev eta : EReal := Ideal.ofBits .f32 0x3DCCCCCD#32
/-- The temperature, as the f32 word for 1.0. -/
abbrev tau : EReal := Ideal.ofBits .f32 0x3F800000#32
/-- The start value of a maximum, as the f32 word for −inf. -/
abbrev negInf : EReal := Ideal.ofBits .f32 0xFF800000#32

/-- The gradient step of one sample. -/
def grad (A : Fin 512 → Fin 1024 → EReal) (x : Fin 1024 → EReal) (y : Fin 512 → EReal) (n : Fin 1024) : EReal :=
  x n - eta * (∑ m : Fin 512, (∑ k : Fin 1024, x k * A m k) * A m n) + eta * (∑ m : Fin 512, y m * A m n)

/-- The scores: absolute values of the weighted step. -/
def score (w h : Fin 1024 → EReal) (n : Fin 1024) : EReal := max (w n * h n) (-(w n * h n))

/-- The spread of a score against all scores. -/
def spread (z : Fin 1024 → EReal) (i : Fin 1024) : EReal := ∑ j : Fin 1024, max (z i - z j) (-(z i - z j))

/-- The rank coefficient 1025 − 2(s+1), an integer. -/
def coeff (s : Fin 50) : EReal := (((1025 - 2 * ((s.val : ℤ) + 1) : ℤ) : ℝ) : EReal)

/-- The logits of rank `s`. -/
def logit (z c : Fin 1024 → EReal) (s : Fin 50) (i : Fin 1024) : EReal := Ideal.div (coeff s * z i - c i) tau

/-- Their maximum over the positions, started from −∞. -/
def top (z c : Fin 1024 → EReal) (s : Fin 50) : EReal := (Finset.univ : Finset (Fin 1024)).fold max negInf (logit z c s)

/-- The exponential of a logit's distance to the maximum. -/
def weight (z c : Fin 1024 → EReal) (s : Fin 50) (i : Fin 1024) : EReal := Ideal.exp (logit z c s i - top z c s)

/-- The soft top-s mask: the normalised weights summed over the ranks. -/
def mask (z c : Fin 1024 → EReal) (i : Fin 1024) : EReal :=
  ∑ s : Fin 50, Ideal.div (weight z c s i) (∑ i' : Fin 1024, weight z c s i')

/-- One sample's result. -/
def sample (A : Fin 512 → Fin 1024 → EReal) (w x : Fin 1024 → EReal) (y : Fin 512 → EReal) (n : Fin 1024) : EReal :=
  mask (score w (grad A x y)) (spread (score w (grad A x y))) n * grad A x y n

/-- THE RESULT ARRAY, [1024, 64]: entry (n, b) is sample b's result at position n. -/
def result (X : (⟨2, ![1024, 64]⟩ : Shape).Idx → EReal) (Y : (⟨2, ![64, 512]⟩ : Shape).Idx → EReal)
    (A : (⟨2, ![512, 1024]⟩ : Shape).Idx → EReal) (W : (⟨1, ![1024]⟩ : Shape).Idx → EReal) :
    (⟨2, ![1024, 64]⟩ : Shape).Idx → EReal :=
  fun j => sample (fun m n => A (ix2 m n)) (fun n => W (ix1 n)) (fun k => X (ix2 k (j 1))) (fun m => Y (ix2 (j 1) m)) (j 0)

theorem result_apply (X : (⟨2, ![1024, 64]⟩ : Shape).Idx → EReal) (Y : (⟨2, ![64, 512]⟩ : Shape).Idx → EReal)
    (A : (⟨2, ![512, 1024]⟩ : Shape).Idx → EReal) (W : (⟨1, ![1024]⟩ : Shape).Idx → EReal) (n : Fin 1024) (b : Fin 64) :
    result X Y A W (ix2 n b)
      = sample (fun m n => A (ix2 m n)) (fun n => W (ix1 n)) (fun k => X (ix2 k b)) (fun m => Y (ix2 b m)) n := rfl

/-! ## A sum over 1024 positions as eight runs of 128 -/

section Runs

variable {M : Type*} [AddCommMonoid M]

/-- The sum over the run of 128 positions that starts at `o`. -/
def run (f : Fin 1024 → M) (o : ℕ) (ho : o + 128 ≤ 1024) : M := ∑ l : Fin 128, f ⟨o + l.val, by omega⟩

/-- A sum over 1024 positions is the sum of its eight runs, taken left to right. -/
theorem sum_eq_runs (f : Fin 1024 → M) :
    ∑ j : Fin 1024, f j
      = run f 0 (by omega) + run f 128 (by omega) + run f 256 (by omega) + run f 384 (by omega)
        + run f 512 (by omega) + run f 640 (by omega) + run f 768 (by omega) + run f 896 (by omega) := by
  have e : ∑ j : Fin 1024, f j = ∑ q : Fin 8, ∑ l : Fin 128, f (finProdFinEquiv (q, l)) :=
    ((Equiv.sum_comp (finProdFinEquiv (m := 8) (n := 128)) f).symm).trans (Fintype.sum_prod_type _)
  rw [e, Fin.sum_univ_eight]
  have hq : ∀ (q : Fin 8) (o : ℕ) (ho : o + 128 ≤ 1024), 128 * q.val = o →
      ∑ l : Fin 128, f (finProdFinEquiv (q, l)) = run f o ho := by
    intro q o ho h
    unfold run
    refine Finset.sum_congr rfl fun l _ => congrArg f (Fin.ext ?_)
    show l.val + 128 * q.val = o + l.val
    omega
  rw [hq 0 0 (by omega) rfl, hq 1 128 (by omega) rfl, hq 2 256 (by omega) rfl, hq 3 384 (by omega) rfl,
    hq 4 512 (by omega) rfl, hq 5 640 (by omega) rfl, hq 6 768 (by omega) rfl, hq 7 896 (by omega) rfl]

end Runs

end Cert.SoftTopMask

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.KernelStep.lean ====
/-
  The kernel body's first values at an entry: the gradient step and the scores of one sample.

  A block holds 32 samples; row p of the block of X (transposed, so [32, 1024]) is sample p's column x, row p of the block of Y
  its row y. The body forms x·Aᵀ (contracting the last axes), then (x·Aᵀ)·A and y·A (contracting A's first axis), all three
  from the zero accumulator, so at the extended reals they are plain sums; h = x − η·(x·Aᵀ·A) + η·(y·A) entry by entry; and
  the scores |w·h| with the weights, a [1, 1024] row, repeated over the 32 samples.
-/
import proofs.«129881_j23270132810499_2_alg».proof.Proof.Gen.KernelIdeal.Skeleton
import proofs.«129881_j23270132810499_2_alg».proof.Proof.Spec
import proofs.«129881_j23270132810499_2_alg».proof.Proof.LibDotLastAxes
import proofs.«129881_j23270132810499_2_alg».proof.Proof.LibDotInner
import Idealize.ShloMosaic.Lib.ValueLayout
import Idealize.ShloMosaic.Lib.Pipeline.Value
import Idealize.ShloMosaic.PureOps.Ideal.Laws

noncomputable section

namespace Cert.KernelIdeal.SampleValue

open Cert.KernelIdeal Cert.KernelIdeal.Gen Idealize.ShloMosaic Idealize.ShloMosaic.ValueIdx Cert.SoftTopMask

variable [Cert.KernelIdeal.Facts]

/-! ## Which operand coordinate is which, for the two contraction records -/

theorem lastAxes_l0 (j : S32x512.Idx) (q : dot_S32x1024_S512x1024_S32x512_1_1_0_0_n_n.contr.Idx) :
    (dot_S32x1024_S512x1024_S32x512_1_1_0_0_n_n.lhsIdx j q 0).val = (j 0).val := by
  unfold DotDims.lhsIdx
  rw [dif_neg (show ¬(0 : Fin S32x1024.rank) ∈ dot_S32x1024_S512x1024_S32x512_1_1_0_0_n_n.lhsBatch by decide),
    dif_pos (show (0 : Fin S32x1024.rank) ∈ dot_S32x1024_S512x1024_S32x512_1_1_0_0_n_n.lhsNonContracting by decide)]
  rfl
theorem lastAxes_l1 (j : S32x512.Idx) (q : dot_S32x1024_S512x1024_S32x512_1_1_0_0_n_n.contr.Idx) :
    (dot_S32x1024_S512x1024_S32x512_1_1_0_0_n_n.lhsIdx j q 1).val = (q ⟨0, by decide⟩).val :=
  dot_S32x1024_S512x1024_S32x512_1_1_0_0_n_n.lhsIdx_val_of_single rfl j q
theorem lastAxes_r0 (j : S32x512.Idx) (q : dot_S32x1024_S512x1024_S32x512_1_1_0_0_n_n.contr.Idx) :
    (dot_S32x1024_S512x1024_S32x512_1_1_0_0_n_n.rhsIdx j q 0).val = (j 1).val := by
  unfold DotDims.rhsIdx
  rw [dif_neg (show ¬(0 : Fin S512x1024.rank) ∈ dot_S32x1024_S512x1024_S32x512_1_1_0_0_n_n.rhsBatch by decide),
    dif_pos (show (0 : Fin S512x1024.rank) ∈ dot_S32x1024_S512x1024_S32x512_1_1_0_0_n_n.rhsNonContracting by decide)]
  rfl
theorem lastAxes_r1 (j : S32x512.Idx) (q : dot_S32x1024_S512x1024_S32x512_1_1_0_0_n_n.contr.Idx) :
    (dot_S32x1024_S512x1024_S32x512_1_1_0_0_n_n.rhsIdx j q 1).val = (q ⟨0, by decide⟩).val :=
  dot_S32x1024_S512x1024_S32x512_1_1_0_0_n_n.rhsIdx_val_of_single rfl j q

theorem inner_l0 (j : S32x1024.Idx) (q : dot_S32x512_S512x1024_S32x1024_1_0_0_1_n_n.contr.Idx) :
    (dot_S32x512_S512x1024_S32x1024_1_0_0_1_n_n.lhsIdx j q 0).val = (j 0).val := by
  unfold DotDims.lhsIdx
  rw [dif_neg (show ¬(0 : Fin S32x512.rank) ∈ dot_S32x512_S512x1024_S32x1024_1_0_0_1_n_n.lhsBatch by decide),
    dif_pos (show (0 : Fin S32x512.rank) ∈ dot_S32x512_S512x1024_S32x1024_1_0_0_1_n_n.lhsNonContracting by decide)]
  rfl
theorem inner_l1 (j : S32x1024.Idx) (q : dot_S32x512_S512x1024_S32x1024_1_0_0_1_n_n.contr.Idx) :
    (dot_S32x512_S512x1024_S32x1024_1_0_0_1_n_n.lhsIdx j q 1).val = (q ⟨0, by decide⟩).val :=
  dot_S32x512_S512x1024_S32x1024_1_0_0_1_n_n.lhsIdx_val_of_single rfl j q
theorem inner_r0 (j : S32x1024.Idx) (q : dot_S32x512_S512x1024_S32x1024_1_0_0_1_n_n.contr.Idx) :
    (dot_S32x512_S512x1024_S32x1024_1_0_0_1_n_n.rhsIdx j q 0).val = (q ⟨0, by decide⟩).val :=
  dot_S32x512_S512x1024_S32x1024_1_0_0_1_n_n.rhsIdx_val_of_single rfl j q
theorem inner_r1 (j : S32x1024.Idx) (q : dot_S32x512_S512x1024_S32x1024_1_0_0_1_n_n.contr.Idx) :
    (dot_S32x512_S512x1024_S32x1024_1_0_0_1_n_n.rhsIdx j q 1).val = (j 1).val := by
  unfold DotDims.rhsIdx
  rw [dif_neg (show ¬(1 : Fin S512x1024.rank) ∈ dot_S32x512_S512x1024_S32x1024_1_0_0_1_n_n.rhsBatch by decide),
    dif_pos (show (1 : Fin S512x1024.rank) ∈ dot_S32x512_S512x1024_S32x1024_1_0_0_1_n_n.rhsNonContracting by decide)]
  rfl

/-! ## The three products at an entry -/

/-- x·Aᵀ: entry (p, m) is Σ_k x[p, k] · A[m, k]. -/
theorem xAt_apply (x : FVec Ideal S32x1024 .f32) (A : FVec Ideal S512x1024 .f32) (p : Fin 32) (m : Fin 512) :
    matmul dot_S32x1024_S512x1024_S32x512_1_1_0_0_n_n none x A (constant S32x512 .f32 0x00000000#32) (ix2 p m)
      = ∑ k : Fin 1024, x (ix2 p k) * A (ix2 m k) :=
  DotLastAxes.matmul_zero_apply dot_S32x1024_S512x1024_S32x512_1_1_0_0_n_n rfl rfl lastAxes_l0 lastAxes_l1 lastAxes_r0 lastAxes_r1
    none x A p m

/-- u·A for a [32, 512] array u: entry (p, n) is Σ_m u[p, m] · A[m, n]. -/
theorem uA_apply (u : FVec Ideal S32x512 .f32) (A : FVec Ideal S512x1024 .f32) (p : Fin 32) (n : Fin 1024) :
    matmul dot_S32x512_S512x1024_S32x1024_1_0_0_1_n_n none u A (constant S32x1024 .f32 0x00000000#32) (ix2 p n)
      = ∑ m : Fin 512, u (ix2 p m) * A (ix2 m n) :=
  DotInner.matmul_zero_apply dot_S32x512_S512x1024_S32x1024_1_0_0_1_n_n rfl rfl inner_l0 inner_l1 inner_r0 inner_r1
    none u A p n

/-! ## The gradient step and the scores -/

/-- The body's gradient step at (p, n) is sample p's. -/
theorem step_apply (x0 : Vec Ideal S32x1024 .f32) (x1 : Vec Ideal S32x512 .f32) (x2 : Vec Ideal S512x1024 .f32)
    (p : Fin 32) (n : Fin 1024) :
    k0_pay2 (F := Ideal) x0 x1 x2 (ix2 p n)
      = grad (fun m n => x2 (ix2 m n)) (fun k => x0 (ix2 p k)) (fun m => x1 (ix2 p m)) n := by
  unfold k0_pay2 grad
  simp only [shapeCast_self]
  show x0 (ix2 p n) - Ideal.ofBits .f32 0x3DCCCCCD#32 * _ + Ideal.ofBits .f32 0x3DCCCCCD#32 * _ = _
  rw [uA_apply, uA_apply]
  simp only [xAt_apply]

end Cert.KernelIdeal.SampleValue

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«129881_j23270132810499_2_alg».proof.Proof.LibLayoutRank3
import proofs.«129881_j23270132810499_2_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.LibRank3Reduce.lean ====
/-
  One-axis reductions of a rank-3 array, read at an entry, over the extended reals.

  For an array `src` of extents [a, b, c]:
    * summed over its last axis, entry (p, i) of the [a, b] result is Σ_l src (p, i, l);
    * summed over its middle axis, entry (p, l) of the [a, c] result is Σ_i src (p, i, l);
    * its maximum over the last axis, started from the word −inf, is the fold of `max` from that word's value over l.
  And the all-pairs form built on the first: for `z` of extents [a, b] and `y` of extents [a, c], the array
  |z[p, i] − y[p, l]| over [a, b, c] (z given a trailing unit axis, y a middle one, each repeated along it), summed over its
  last axis, has at (p, i) the sum over l of |z (p, i) − y (p, l)|, an absolute value being `max x (−x)`.
  Nothing is asked of the entries: the statements hold at +∞ and −∞.
-/
import proofs.«129881_j23270132810499_2_alg».proof.Proof.LibOuterPair
import Idealize.ShloMosaic.PureOps.Ideal.Laws
import Idealize.ShloMosaic.Lib.ValueIdx
import Idealize.ShloMosaic.Lib.Pipeline.Value

noncomputable section

namespace Cert.Rank3Reduce

open Idealize.ShloMosaic Idealize.ShloMosaic.ValueIdx

variable {a b c : ℕ}

/-- A sum over the last axis: entry (p, i) is Σ_l src (p, i, l). -/
theorem sum_last_apply (src : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩ src 0x00000000#32 h hφ hacc (ix2 p i) = ∑ l : Fin c, src (ix3 p i l) :=
  (Ideal.multiReduction_add_single src 0x00000000#32 h hφ hacc (ix2 p i)).trans
    (Finset.sum_congr rfl fun l _ => congrArg src (funext fun ax => Fin.ext (by
      match ax with
      | ⟨0, _⟩ => rfl
      | ⟨1, _⟩ => rfl
      | ⟨2, _⟩ => rfl)))

/-- A sum over the middle axis: entry (p, l) is Σ_i src (p, i, l). -/
theorem sum_mid_apply (src : FVec Ideal ⟨3, ![a, b, c]⟩ .f32) (h : (⟨3, ![a, b, c]⟩ : Shape).Reduces [1] ⟨2, ![a, c]⟩)
    (hφ : FKind.Formats .f32) (hacc : (0x00000000#32 : BitVec 32) = 0x00000000#32) (p : Fin a) (l : Fin c) :
    multiReduction .add [1] ⟨2, ![a, c]⟩ src 0x00000000#32 h hφ hacc (ix2 p l) = ∑ i : Fin b, src (ix3 p i l) :=
  (Ideal.multiReduction_add_single src 0x00000000#32 h hφ hacc (ix2 p l)).trans
    (Finset.sum_congr rfl fun i _ => congrArg src (funext fun ax => Fin.ext (by
      match ax with
      | ⟨0, _⟩ => rfl
      | ⟨1, _⟩ => rfl
      | ⟨2, _⟩ => rfl)))

/-- A maximum over the last axis, started from −inf: the fold of `max` over l from that word's value. -/
theorem max_last_apply (src : FVec Ideal ⟨3, ![a, b, c]⟩ .f32) (h : (⟨3, ![a, b, c]⟩ : Shape).Reduces [2] ⟨2, ![a, b]⟩)
    (hφ : FKind.Formats .f32) (hacc : (0xFF800000#32 : BitVec 32) = 0xFF800000#32) (p : Fin a) (i : Fin b) :
    multiReduction .maximumf [2] ⟨2, ![a, b]⟩ src 0xFF800000#32 h hφ hacc (ix2 p i)
      = (Finset.univ : Finset (Fin c)).fold max (Ideal.ofBits .f32 0xFF800000#32) (fun l => src (ix3 p i l)) :=
  (Ideal.multiReduction_maximumf_single src 0xFF800000#32 h hφ hacc (ix2 p i)).trans
    (congrArg ((Finset.univ : Finset (Fin c)).fold max (Ideal.ofBits .f32 0xFF800000#32))
      (funext fun l => congrArg src (funext fun ax => Fin.ext (by
        match ax with
        | ⟨0, _⟩ => rfl
        | ⟨1, _⟩ => rfl
        | ⟨2, _⟩ => rfl))))

/-- The all-pairs absolute differences of `z` against `y`, summed over the positions of `y`. -/
theorem abs_pair_sum_apply (z : FVec Ideal ⟨2, ![a, b]⟩ .f32) (y : FVec Ideal ⟨2, ![a, c]⟩ .f32)
    (h1 : (⟨2, ![a, b]⟩ : Shape).ShapeCasts ⟨3, ![a, b, 1]⟩) (h2 : (⟨3, ![a, b, 1]⟩ : Shape).Broadcasts ⟨3, ![a, b, c]⟩)
    (h3 : (⟨2, ![a, c]⟩ : Shape).ShapeCasts ⟨3, ![a, 1, c]⟩) (h4 : (⟨3, ![a, 1, c]⟩ : Shape).Broadcasts ⟨3, ![a, b, c]⟩)
    (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩
        (absf (subf (broadcastTo ⟨3, ![a, b, c]⟩ (shapeCast ⟨3, ![a, b, 1]⟩ z h1) h2)
          (broadcastTo ⟨3, ![a, b, c]⟩ (shapeCast ⟨3, ![a, 1, c]⟩ y h3) h4)))
        0x00000000#32 h hφ hacc (ix2 p i)
      = ∑ l : Fin c, max (z (ix2 p i) - y (ix2 p l)) (-(z (ix2 p i) - y (ix2 p l))) := by
  refine (sum_last_apply _ h hφ hacc p i).trans (Finset.sum_congr rfl fun l _ => ?_)
  show max (broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))
      (-(broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))) = _
  rw [Cert.OuterPair.left_apply z h1 h2 p i l, Cert.OuterPair.right_apply y h3 h4 p i l]

end Cert.Rank3Reduce

end
-- ==== Proof.KernelSpread.lean ====
/-
  The kernel body's scores and spreads at an entry.

  The scores are |w·h| with the weight row repeated over the block's 32 samples. The spread of score z[p, i] against all of sample
  p's scores is accumulated in eight steps from zero: step q adds Σ_l |z[p, i] − z[p, 128q + l]| over the run of 128 positions
  starting at 128q (the scores given a trailing unit axis, the run a middle one, each repeated along it, subtracted, their absolute
  values summed over the last axis). The eight runs cover the 1024 positions once each, so the total is Σ_j |z[p, i] − z[p, j]|.
-/
import proofs.«129881_j23270132810499_2_alg».proof.Proof.Gen.KernelIdeal.Skeleton
import proofs.«129881_j23270132810499_2_alg».proof.Proof.Spec
import proofs.«129881_j23270132810499_2_alg».proof.Proof.LibRank3Reduce
import Idealize.ShloMosaic.Lib.ValueLayout
import Idealize.ShloMosaic.Lib.Pipeline.Value
import Idealize.ShloMosaic.PureOps.Ideal.Laws

noncomputable section

namespace Cert.KernelIdeal.SampleValue

open Cert.KernelIdeal Cert.KernelIdeal.Gen Idealize.ShloMosaic Idealize.ShloMosaic.ValueIdx Cert.SoftTopMask

variable [Cert.KernelIdeal.Facts]

/-- The body's score at (p, n): |w[n] · h[p, n]|, `h` the body's gradient step. -/
theorem score_apply (x0 : Vec Ideal S32x1024 .f32) (x1 : Vec Ideal S32x512 .f32) (x2 : Vec Ideal S512x1024 .f32)
    (x3 : Vec Ideal S1x1024 .f32) (p : Fin 32) (n : Fin 1024) :
    k0_pay3 (F := Ideal) x0 x1 x2 x3 (ix2 p n)
      = score (fun n => x3 (ix2 (0 : Fin 1) n)) (fun n => k0_pay2 (F := Ideal) x0 x1 x2 (ix2 p n)) n := by
  unfold k0_pay3 score
  simp only [shapeCast_self]
  show max (broadcastTo S32x1024 x3 _ (ix2 p n) * _) (-(broadcastTo S32x1024 x3 _ (ix2 p n) * _)) = _
  rw [broadcastTo_1b_ab_apply]

/-- The absolute difference of two scores of one sample. -/
abbrev gap (z : FVec Ideal S32x1024 .f32) (p : Fin 32) (i j : Fin 1024) : EReal :=
  max (z (ix2 p i) - z (ix2 p j)) (-(z (ix2 p i) - z (ix2 p j)))

/-- One step of the accumulation: the run of 128 positions starting at `o`. -/
theorem run_apply (z : FVec Ideal S32x1024 .f32) (o : ℕ) (hs : S32x1024.Slices ![0, o] S32x128)
    (h1 : S32x1024.ShapeCasts S32x1024x1) (h2 : S32x1024x1.Broadcasts S32x1024x128)
    (h3 : S32x128.ShapeCasts S32x1x128) (h4 : S32x1x128.Broadcasts S32x1024x128)
    (h : S32x1024x128.Reduces [2] S32x1024) (hφ : FKind.Formats .f32) (hacc : (0x00000000#32 : BitVec 32) = 0x00000000#32)
    (p : Fin 32) (i : Fin 1024) (ho : o + 128 ≤ 1024) :
    multiReduction .add [2] S32x1024
        (absf (subf (broadcastTo S32x1024x128 (shapeCast S32x1024x1 z h1) h2)
          (broadcastTo S32x1024x128 (shapeCast S32x1x128 (extractStridedSlice S32x128 ![0, o] z hs) h3) h4)))
        0x00000000#32 h hφ hacc (ix2 p i)
      = run (gap z p i) o ho := by
  refine (Cert.Rank3Reduce.abs_pair_sum_apply z _ h1 h2 h3 h4 h hφ hacc p i).trans ?_
  unfold run
  refine Finset.sum_congr rfl fun l _ => ?_
  rw [slice2_axis1_eq o z hs p l]

/-- The differences of one step before their absolute values are taken. -/
theorem diff_apply (z : FVec Ideal S32x1024 .f32) (o : ℕ) (hs : S32x1024.Slices ![0, o] S32x128)
    (h1 : S32x1024.ShapeCasts S32x1024x1) (h2 : S32x1024x1.Broadcasts S32x1024x128)
    (h3 : S32x128.ShapeCasts S32x1x128) (h4 : S32x1x128.Broadcasts S32x1024x128)
    (p : Fin 32) (i : Fin 1024) (l : Fin 128) (ho : o + 128 ≤ 1024) :
    subf (broadcastTo S32x1024x128 (shapeCast S32x1024x1 z h1) h2)
        (broadcastTo S32x1024x128 (shapeCast S32x1x128 (extractStridedSlice S32x128 ![0, o] z hs) h3) h4) (ix3 p i l)
      = z (ix2 p i) - z (ix2 p ⟨o + l.val, by omega⟩) := by
  show broadcastTo S32x1024x128 (shapeCast S32x1024x1 z h1) h2 (ix3 p i l)
      - broadcastTo S32x1024x128 (shapeCast S32x1x128 (extractStridedSlice S32x128 ![0, o] z hs) h3) h4 (ix3 p i l) = _
  rw [Cert.OuterPair.left_apply z h1 h2 p i l, Cert.OuterPair.right_apply _ h3 h4 p i l, slice2_axis1_eq o z hs p l]

/-- After the first two steps. -/
theorem two_runs_apply (x0 : Vec Ideal S32x1024 .f32) (x1 : Vec Ideal S32x512 .f32) (x2 : Vec Ideal S512x1024 .f32)
    (x3 : Vec Ideal S1x1024 .f32) (p : Fin 32) (i : Fin 1024) :
    k0_pay4 (F := Ideal) x0 x1 x2 x3 (ix2 p i)
      = run (gap (k0_pay3 (F := Ideal) x0 x1 x2 x3) p i) 0 (by omega) + run (gap (k0_pay3 (F := Ideal) x0 x1 x2 x3) p i) 128 (by omega) := by
  unfold k0_pay4
  show (Ideal.ofBits .f32 0x00000000#32 + multiReduction .add [2] S32x1024 _ 0x00000000#32 _ _ _ (ix2 p i))
      + multiReduction .add [2] S32x1024 _ 0x00000000#32 _ _ _ (ix2 p i) = _
  rw [run_apply _ 0 _ _ _ _ _ _ _ _ p i (by omega), run_apply _ 128 _ _ _ _ _ _ _ _ p i (by omega),
    Ideal.ofBits_zero_f32, zero_add]

/-- The third step's differences. -/
theorem third_diff_apply (x0 : Vec Ideal S32x1024 .f32) (x1 : Vec Ideal S32x512 .f32) (x2 : Vec Ideal S512x1024 .f32)
    (x3 : Vec Ideal S1x1024 .f32) (p : Fin 32) (i : Fin 1024) (l : Fin 128) :
    k0_pay5 (F := Ideal) x0 x1 x2 x3 (ix3 p i l)
      = k0_pay3 (F := Ideal) x0 x1 x2 x3 (ix2 p i) - k0_pay3 (F := Ideal) x0 x1 x2 x3 (ix2 p ⟨256 + l.val, by omega⟩) := by
  unfold k0_pay5
  exact diff_apply _ 256 _ _ _ _ _ p i l (by omega)

/-- The last six steps, from any start. -/
theorem six_runs_apply (v17 v36 : FVec Ideal S32x1024 .f32) (v42 : FVec Ideal S32x1024x128 .f32) (p : Fin 32) (i : Fin 1024) :
    k0_pay6 (F := Ideal) v17 v36 v42 (ix2 p i)
      = v36 (ix2 p i) + (∑ l : Fin 128, max (v42 (ix3 p i l)) (-(v42 (ix3 p i l))))
        + run (gap v17 p i) 384 (by omega) + run (gap v17 p i) 512 (by omega) + run (gap v17 p i) 640 (by omega)
        + run (gap v17 p i) 768 (by omega) + run (gap v17 p i) 896 (by omega) := by
  unfold k0_pay6
  show (((((v36 (ix2 p i) + multiReduction .add [2] S32x1024 (absf v42) 0x00000000#32 _ _ _ (ix2 p i))
      + multiReduction .add [2] S32x1024 _ 0x00000000#32 _ _ _ (ix2 p i))
      + multiReduction .add [2] S32x1024 _ 0x00000000#32 _ _ _ (ix2 p i))
      + multiReduction .add [2] S32x1024 _ 0x00000000#32 _ _ _ (ix2 p i))
      + multiReduction .add [2] S32x1024 _ 0x00000000#32 _ _ _ (ix2 p i))
      + multiReduction .add [2] S32x1024 _ 0x00000000#32 _ _ _ (ix2 p i) = _
  rw [run_apply _ 384 _ _ _ _ _ _ _ _ p i (by omega), run_apply _ 512 _ _ _ _ _ _ _ _ p i (by omega),
    run_apply _ 640 _ _ _ _ _ _ _ _ p i (by omega), run_apply _ 768 _ _ _ _ _ _ _ _ p i (by omega),
    run_apply _ 896 _ _ _ _ _ _ _ _ p i (by omega), Cert.Rank3Reduce.sum_last_apply (absf v42) _ _ _ p i]
  rfl

/-- THE SPREAD: the eight steps together are the sum over all 1024 positions. -/
theorem spread_apply (x0 : Vec Ideal S32x1024 .f32) (x1 : Vec Ideal S32x512 .f32) (x2 : Vec Ideal S512x1024 .f32)
    (x3 : Vec Ideal S1x1024 .f32) (p : Fin 32) (i : Fin 1024) :
    k0_pay6 (F := Ideal) (k0_pay3 (F := Ideal) x0 x1 x2 x3) (k0_pay4 (F := Ideal) x0 x1 x2 x3) (k0_pay5 (F := Ideal) x0 x1 x2 x3) (ix2 p i)
      = spread (fun n => k0_pay3 (F := Ideal) x0 x1 x2 x3 (ix2 p n)) i := by
  rw [six_runs_apply, two_runs_apply]
  have h3 : (∑ l : Fin 128, max (k0_pay5 (F := Ideal) x0 x1 x2 x3 (ix3 p i l)) (-(k0_pay5 (F := Ideal) x0 x1 x2 x3 (ix3 p i l))))
      = run (gap (k0_pay3 (F := Ideal) x0 x1 x2 x3) p i) 256 (by omega) := by
    unfold run
    exact Finset.sum_congr rfl fun l _ => by rw [third_diff_apply]
  rw [h3]
  unfold spread
  exact (sum_eq_runs (gap (k0_pay3 (F := Ideal) x0 x1 x2 x3) p i)).symm

end Cert.KernelIdeal.SampleValue

end
-- ==== Proof.LibMiddleVector.lean ====
/-
  A vector laid along the middle axis of a rank-3 array, read at an entry.

  `ks[None, :, None]` against an [a, b, c] array: a vector `x` of extent b is cast to [1, b, 1] and repeated along both unit
  axes, so that entry (p, s, i) of the result is x[s].
    * [b] → [1, b, 1], a cast: the entry at (u, s, u') is the operand's at s (same row-major position);
    * [1, b, 1] → [a, b, c], a broadcast: the entry at (p, s, i) is the operand's at (0, s, 0).
-/
import Idealize.ShloMosaic.Lib.Pipeline.Value
import Idealize.ShloMosaic.Lib.ValueIdx

namespace Cert.MiddleVector

open Idealize.ShloMosaic Idealize.ShloMosaic.ValueIdx

variable {α : Type}

/-- A vector [b] cast to [1, b, 1] reads, at (u, s, u'), the operand at s. -/
theorem shapeCast_b_1b1_apply {b : ℕ} (x : (⟨1, ![b]⟩ : Shape).Idx → α)
    (h : (⟨1, ![b]⟩ : Shape).ShapeCasts ⟨3, ![1, b, 1]⟩) (u : Fin 1) (s : Fin b) (u' : Fin 1) :
    shapeCast ⟨3, ![1, b, 1]⟩ x h (ix3 u s u') = x (ix1 s) :=
  shapeCast_apply x h _ _ (by
    have hu : u.val = 0 := by omega
    have hu' : u'.val = 0 := by omega
    rw [Shape.rowMajor_val_three, Shape.rowMajor_val_one]
    show s.val = (u.val * b + s.val) * 1 + u'.val
    rw [hu, hu', Nat.zero_mul, Nat.zero_add, Nat.mul_one, Nat.add_zero])

/-- A [1, b, 1] array broadcast to [a, b, c] reads, at (p, s, i), the operand at (0, s, 0). -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (s : Fin b) (i : Fin c) :
    broadcastTo ⟨3, ![a, b, c]⟩ v h (ix3 p s i) = v (ix3 (0 : Fin 1) s (0 : Fin 1)) := by
  refine broadcastTo_apply v h (ix3 p s i) (ix3 (0 : Fin 1) s (0 : Fin 1)) fun ax => ?_
  match ax with
  | ⟨0, _⟩ => rfl
  | ⟨1, _⟩ =>
    show s.val = if b = 1 then 0 else s.val
    split
    · have := s.isLt; omega
    · rfl
  | ⟨2, _⟩ => rfl

/-- Both together: the vector along the middle axis, at (p, s, i), is x[s]. -/
theorem middle_apply {a b c : ℕ} (x : (⟨1, ![b]⟩ : Shape).Idx → α)
    (h : (⟨1, ![b]⟩ : Shape).ShapeCasts ⟨3, ![1, b, 1]⟩) (h' : (⟨3, ![1, b, 1]⟩ : Shape).Broadcasts ⟨3, ![a, b, c]⟩)
    (p : Fin a) (s : Fin b) (i : Fin c) :
    broadcastTo ⟨3, ![a, b, c]⟩ (shapeCast ⟨3, ![1, b, 1]⟩ x h) h' (ix3 p s i) = x (ix1 s) :=
  (broadcastTo_1b1_abc_apply _ h' p s i).trans (shapeCast_b_1b1_apply x h 0 s 0)

end Cert.MiddleVector
-- ==== Proof.KernelMask.lean ====
/-
  The kernel body's last values at an entry: the rank coefficients, the logits, and the soft top-s mask times the gradient step.

  The ranks are 1 + the positions 0 … 49 of an integer count, converted to floats exactly; the coefficient of rank s is
  1025 − 2·(s + 1), formed from the words 1025.0 and 2.0, whose values are those integers. A logit is
  (coefficient · score − spread) / τ, with the coefficients laid along the middle axis of [32, 50, 1024] and the scores and
  spreads of each sample repeated over the ranks. Over the last axis: the maximum from −∞, the exponentials of the differences
  to it, their sum; each exponential divided by that sum; and these summed over the ranks (the middle axis) and multiplied by the
  gradient step.
-/
import proofs.«129881_j23270132810499_2_alg».proof.Proof.Gen.KernelIdeal.Skeleton
import proofs.«129881_j23270132810499_2_alg».proof.Proof.Spec
import proofs.«129881_j23270132810499_2_alg».proof.Proof.LibRank3Reduce
import proofs.«129881_j23270132810499_2_alg».proof.Proof.LibMiddleVector
import Idealize.ShloMosaic.Lib.ValueLayout
import Idealize.ShloMosaic.Lib.Pipeline.Value
import Idealize.ShloMosaic.PureOps.Ideal.Laws

noncomputable section

namespace Cert.KernelIdeal.SampleValue

open Cert.KernelIdeal Cert.KernelIdeal.Gen Idealize.ShloMosaic Idealize.ShloMosaic.ValueIdx Cert.SoftTopMask

variable [Cert.KernelIdeal.Facts]

/-! ## The rank coefficients -/

/-- The word 1025.0 denotes the integer 1025. -/
theorem word_1025 : Ideal.ofBits .f32 0x44802000#32 = ((1025 : ℝ) : EReal) := by
  simp [Ideal.ofBits, Ideal.ieee, -EReal.coe_mul]; norm_num

/-- The word 2.0 denotes the integer 2. -/
theorem word_2 : Ideal.ofBits .f32 0x40000000#32 = ((2 : ℝ) : EReal) := by
  simp [Ideal.ofBits, Ideal.ieee, -EReal.coe_mul]; norm_num

/-- One more than a position below 50 does not wrap in 32 bits. -/
theorem rank_int : ∀ s : Fin 50, (IntOp.addi (BitVec.ofNat 32 (0 * 50 + s.val)) 1#32).toInt = (s.val : ℤ) + 1 := by
  decide

/-- The body's ranks: entry s is s + 1, exactly. -/
theorem ranks_apply (s : Fin 50) : k0_pay7 (F := Ideal) (ix1 s) = ((((s.val : ℤ) + 1 : ℤ) : ℝ) : EReal) := by
  unfold k0_pay7
  show (((IntOp.addi (shapeCast S50 (iota .tc S1x50 32 [1] _) _ (ix1 s)) 1#32).toInt : ℝ) : EReal) = _
  rw [shapeCast_1a_a_apply]
  show (((IntOp.addi (BitVec.ofNat 32 (0 * 50 + s.val)) 1#32).toInt : ℝ) : EReal) = _
  rw [rank_int s]

/-- 1025.0 − 2.0 · (s + 1) is the coefficient of rank s. -/
theorem coeff_eq (s : Fin 50) :
    Ideal.ofBits .f32 0x44802000#32 - Ideal.ofBits .f32 0x40000000#32 * ((((s.val : ℤ) + 1 : ℤ) : ℝ) : EReal) = coeff s := by
  rw [word_1025, word_2, ← EReal.coe_mul, ← EReal.coe_sub]
  unfold coeff
  congr 1
  push_cast
  ring

/-! ## The logits -/

/-- The body's logit at (p, s, i), from sample p's scores and spreads and the ranks. -/
theorem logit_apply (v17 v90 : FVec Ideal S32x1024 .f32) (v95 : FVec Ideal S50 .f32)
    (hk : ∀ s : Fin 50, v95 (ix1 s) = ((((s.val : ℤ) + 1 : ℤ) : ℝ) : EReal))
    (g1 : S50.ShapeCasts S1x50x1) (g2 : S1x50x1.Broadcasts S32x50x1024)
    (g3 : S32x1024.ShapeCasts S32x1x1024) (g4 : S32x1x1024.Broadcasts S32x50x1024)
    (p : Fin 32) (s : Fin 50) (i : Fin 1024) :
    divf (subf (mulf (broadcastTo S32x50x1024 (shapeCast S1x50x1
                (subf (broadcast S50 (Scalar.ofBits (F := Ideal) .f32 0x44802000#32))
                  (mulf (broadcast S50 (Scalar.ofBits (F := Ideal) .f32 0x40000000#32)) v95)) g1) g2)
              (broadcastTo S32x50x1024 (shapeCast S32x1x1024 v17 g3) g4))
          (broadcastTo S32x50x1024 (shapeCast S32x1x1024 v90 g3) g4))
        (broadcast S32x50x1024 (Scalar.ofBits (F := Ideal) .f32 0x3F800000#32)) (ix3 p s i)
      = logit (fun n => v17 (ix2 p n)) (fun n => v90 (ix2 p n)) s i := by
  show Ideal.div (broadcastTo S32x50x1024 (shapeCast S1x50x1 _ g1) g2 (ix3 p s i)
        * broadcastTo S32x50x1024 (shapeCast S32x1x1024 v17 g3) g4 (ix3 p s i)
        - broadcastTo S32x50x1024 (shapeCast S32x1x1024 v90 g3) g4 (ix3 p s i)) (Ideal.ofBits .f32 0x3F800000#32) = _
  rw [Cert.MiddleVector.middle_apply _ g1 g2 p s i, Cert.OuterPair.right_apply v17 g3 g4 p s i,
    Cert.OuterPair.right_apply v90 g3 g4 p s i]
  show Ideal.div ((Ideal.ofBits .f32 0x44802000#32 - Ideal.ofBits .f32 0x40000000#32 * v95 (ix1 s)) * v17 (ix2 p i) - v90 (ix2 p i))
      (Ideal.ofBits .f32 0x3F800000#32) = _
  rw [hk s, coeff_eq s]
  rfl

/-! ## The normalised exponentials and the mask -/

/-- From any logits `L`: the maximum, exponentials, sum, quotient, sum over the ranks, and the product with `h`. -/
theorem soft_mask_apply (L : FVec Ideal S32x50x1024 .f32) (v14 : FVec Ideal S32x1024 .f32)
    (r2 : S32x50x1024.Reduces [2] S32x50) (c1 : S32x50.ShapeCasts S32x50x1) (b1 : S32x50x1.Broadcasts S32x50x1024)
    (r1 : S32x50x1024.Reduces [1] S32x1024) (hφ : FKind.Formats .f32)
    (hmax : (0xFF800000#32 : BitVec 32) = 0xFF800000#32) (hadd : (0x00000000#32 : BitVec 32) = 0x00000000#32)
    (p : Fin 32) (i : Fin 1024) :
    mulf (multiReduction .add [1] S32x1024
        (divf (exp (subf L (broadcastTo S32x50x1024 (shapeCast S32x50x1 (multiReduction .maximumf [2] S32x50 L 0xFF800000#32 r2 hφ hmax) c1) b1)))
          (broadcastTo S32x50x1024 (shapeCast S32x50x1
            (multiReduction .add [2] S32x50
              (exp (subf L (broadcastTo S32x50x1024 (shapeCast S32x50x1 (multiReduction .maximumf [2] S32x50 L 0xFF800000#32 r2 hφ hmax) c1) b1)))
              0x00000000#32 r2 hφ hadd) c1) b1))
        0x00000000#32 r1 hφ hadd) v14 (ix2 p i)
      = (∑ s : Fin 50, Ideal.div
            (Ideal.exp (L (ix3 p s i) - (Finset.univ : Finset (Fin 1024)).fold max negInf (fun l => L (ix3 p s l))))
            (∑ i' : Fin 1024, Ideal.exp (L (ix3 p s i') - (Finset.univ : Finset (Fin 1024)).fold max negInf (fun l => L (ix3 p s l)))))
          * v14 (ix2 p i) := by
  have hM : ∀ (s : Fin 50) (i' : Fin 1024),
      broadcastTo S32x50x1024 (shapeCast S32x50x1 (multiReduction .maximumf [2] S32x50 L 0xFF800000#32 r2 hφ hmax) c1) b1 (ix3 p s i')
        = (Finset.univ : Finset (Fin 1024)).fold max negInf (fun l => L (ix3 p s l)) := fun s i' =>
    (Cert.OuterPair.left_apply _ c1 b1 p s i').trans (Cert.Rank3Reduce.max_last_apply L r2 hφ hmax p s)
  have hE : ∀ (s : Fin 50) (i' : Fin 1024),
      exp (subf L (broadcastTo S32x50x1024 (shapeCast S32x50x1 (multiReduction .maximumf [2] S32x50 L 0xFF800000#32 r2 hφ hmax) c1) b1)) (ix3 p s i')
        = Ideal.exp (L (ix3 p s i') - (Finset.univ : Finset (Fin 1024)).fold max negInf (fun l => L (ix3 p s l))) := fun s i' =>
    congrArg (fun m => Ideal.exp (L (ix3 p s i') - m)) (hM s i')
  show multiReduction .add [1] S32x1024 _ 0x00000000#32 r1 hφ hadd (ix2 p i) * v14 (ix2 p i) = _
  rw [Cert.Rank3Reduce.sum_mid_apply _ r1 hφ hadd p i]
  refine congrArg (· * v14 (ix2 p i)) (Finset.sum_congr rfl fun s _ => ?_)
  show Ideal.div (exp (F := Ideal) _ (ix3 p s i)) (broadcastTo S32x50x1024 (shapeCast S32x50x1 _ c1) b1 (ix3 p s i)) = _
  rw [Cert.OuterPair.left_apply _ c1 b1 p s i, Cert.Rank3Reduce.sum_last_apply _ r2 hφ hadd p s, hE s i]
  exact congrArg (Ideal.div _) (Finset.sum_congr rfl fun i' _ => hE s i')

/-- THE MASKED STEP: the body's stored value at (p, i) is sample p's mask at i times its gradient step at i. -/
theorem masked_apply (v14 v17 v90 : FVec Ideal S32x1024 .f32) (v95 : FVec Ideal S50 .f32)
    (hk : ∀ s : Fin 50, v95 (ix1 s) = ((((s.val : ℤ) + 1 : ℤ) : ℝ) : EReal)) (p : Fin 32) (i : Fin 1024) :
    k0_pay1 (F := Ideal) v14 v17 v90 v95 (ix2 p i)
      = mask (fun n => v17 (ix2 p n)) (fun n => v90 (ix2 p n)) i * v14 (ix2 p i) := by
  unfold k0_pay1
  refine (soft_mask_apply _ v14 _ _ _ _ _ _ _ p i).trans ?_
  unfold mask weight top
  simp only [logit_apply v17 v90 v95 hk]

end Cert.KernelIdeal.SampleValue

end
-- ==== Proof.KernelSample.lean ====
/-
  What the kernel body leaves in its output block: row p of the block is sample p's result.

  The body loads its four blocks whole, computes, and stores one [32, 1024] block whole. Entry (p, n) of that block is the soft
  top-s mask of sample p at n times its gradient step at n, the sample being row p of the block of X (transposed), row p of the
  block of Y, the whole matrix A and the weight row.
-/
import proofs.«129881_j23270132810499_2_alg».proof.Proof.Gen.KernelIdeal.Frame
import proofs.«129881_j23270132810499_2_alg».proof.Proof.KernelStep
import proofs.«129881_j23270132810499_2_alg».proof.Proof.KernelSpread
import proofs.«129881_j23270132810499_2_alg».proof.Proof.KernelMask
import Idealize.ShloMosaic.Lib.Pipeline.Value

noncomputable section

namespace Cert.KernelIdeal.SampleValue

open Cert.KernelIdeal Cert.KernelIdeal.Gen Idealize.ShloMosaic Idealize.ShloMosaic.ValueIdx Cert.SoftTopMask

variable [Cert.KernelIdeal.Facts]

theorem zero_offsets : (![0, 0] : Fin 2 → Nat) = fun _ => 0 := funext fun a => by fin_cases a <;> rfl

/-- The stored block at (p, n) is sample p's result at n. -/
theorem block_apply (x0 : Vec Ideal S32x1024 .f32) (x1 : Vec Ideal S32x512 .f32) (x2 : Vec Ideal S512x1024 .f32)
    (x3 : Vec Ideal S1x1024 .f32) (p : Fin 32) (n : Fin 1024) :
    out0_4 (F := Ideal) x0 x1 x2 x3 (ix2 p n)
      = sample (fun m n => x2 (ix2 m n)) (fun n => x3 (ix2 (0 : Fin 1) n)) (fun k => x0 (ix2 p k)) (fun m => x1 (ix2 p m)) n := by
  unfold out0_4
  rw [View.canon_unit_zero zero_offsets]
  simp only [View.ld_unit_zero (S := S32x1024) zero_offsets, View.ld_unit_zero (S := S32x512) zero_offsets,
    View.ld_unit_zero (S := S512x1024) zero_offsets, View.ld_unit_zero (S := S1x1024) zero_offsets]
  rw [masked_apply _ _ _ _ (fun s => ranks_apply s) p n]
  unfold sample
  simp only [spread_apply, score_apply, step_apply]

end Cert.KernelIdeal.SampleValue

end
-- ==== Proof.KernelArray.lean ====
/-
  From the kernel's blocks to its result array.

  The region finds X transposed ([64, 1024]: row b is sample b's column of X) and the weights as a [1, 1024] row; Y and A are as
  launched. Grid point t handles the 32 samples 32t … 32t + 31: its blocks of the transposed X and of Y are those rows, A and the
  weight row are read whole. So what point t writes back is rows 32t … 32t + 31 of ONE array over [64, 1024], whose entry (b, n) is
  sample b's result at n; the two points' blocks cover the 64 rows, so the region's output array ends holding it, and the
  transposition after the region gives the [1024, 64] result.
-/
import proofs.«129881_j23270132810499_2_alg».proof.Proof.Gen.KernelIdeal.Frame
import proofs.«129881_j23270132810499_2_alg».proof.Proof.KernelSample
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.SoftTopMask Cert.KernelIdeal.SampleValue

variable (m : (ℓ : Loc nD τ sig) → Buf (Elt Ideal) ℓ) (ρ : Dev nD → PrngReg)

/-- The four argument arrays as launched on core `c`. -/
abbrev argX (c : Dev nD) : S1024x64.Idx → EReal := m ((c : Thread nD τ).loc main_arg0)
abbrev argY (c : Dev nD) : S64x512.Idx → EReal := m ((c : Thread nD τ).loc main_arg1)
abbrev argA (c : Dev nD) : S512x1024.Idx → EReal := m ((c : Thread nD τ).loc main_arg2)
abbrev argW (c : Dev nD) : S1024.Idx → EReal := m ((c : Thread nD τ).loc main_arg3)

/-- The array the region's output ends holding, [64, 1024]: entry (b, n) is the result's entry (n, b). -/
def rows (c : Dev nD) : S64x1024.Idx → EReal :=
  fun j => result (argX m c) (argY m c) (argA m c) (argW m c) (ix2 (j 1) (j 0))

/-! ## What the region finds -/

/-- The transposed X: entry (b, k) is X's (k, b). -/
theorem entry_Xt (c : Dev nD) (b : Fin 64) (k : Fin 1024) :
    (V m c main_v0 : S64x1024.Idx → EReal) (ix2 b k) = argX m c (ix2 k b) := by
  have e : (V m c main_v0 : S64x1024.Idx → EReal)
      = transpose S64x1024 [1, 0] (argX m c) Facts₀.transposes_S1024x64_S64x1024_1_0 := by
    show StableHlo.after hostOps0 (fun b => m (c, b)) (Proc.devRef .tc main_v0) = _
    after_results
    all_goals rfl
  rw [e]
  exact transpose_apply [1, 0] (argX m c) _ (ix2 b k) (ix2 k b) (fun a => match a with
    | ⟨0, _⟩ => rfl
    | ⟨1, _⟩ => rfl)

/-- The weight row: entry (0, n) is the weights' n. -/
theorem entry_Wrow (c : Dev nD) (n : Fin 1024) :
    (V m c main_v1 : S1x1024.Idx → EReal) (ix2 (0 : Fin 1) n) = argW m c (ix1 n) := by
  have e : (V m c main_v1 : S1x1024.Idx → EReal)
      = shapeCast S1x1024 (argW m c) Facts₀.shapeCasts_S1024_S1x1024 := by
    show StableHlo.after hostOps0 (fun b => m (c, b)) (Proc.devRef .tc main_v1) = _
    after_results
    all_goals rfl
  rw [e]
  exact shapeCast_a_1a_apply (argW m c) _ 0 n

/-! ## The input blocks at a point -/

theorem points : cfg0.N = 2 := N_0

/-- The printed index maps over the two points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's block of the transposed X: row p is sample 32t + p's column of X. -/
theorem blockX_apply (c : Dev nD) (t : Fin cfg0.N) (p : Fin 32) (k : Fin 1024) (b : Fin 64) (hb : b.val = 32 * t.val + p.val) :
    (iblk m c 0 t : Vec Ideal S32x1024 .f32) (ix2 p k) = argX m c (ix2 k b) := by
  obtain ⟨e0, e1, -⟩ := index_facts t
  unfold iblk
  rw [View.read_apply]
  show V m c main_v0 _ = _
  refine (congrArg (V m c main_v0 : S64x1024.Idx → EReal) (?_ : _ = ix2 b k)).trans (entry_Xt m c b k)
  funext a
  apply Fin.ext
  match a with
  | ⟨0, _⟩ => show win0_0.index t (0 : Fin 2) * 32 + 1 * p.val = b.val; rw [e0, hb]; omega
  | ⟨1, _⟩ => show win0_0.index t (1 : Fin 2) * 1024 + 1 * k.val = k.val; rw [e1]; omega

/-- Point t's block of Y: row p is sample 32t + p's row of Y. -/
theorem blockY_apply (c : Dev nD) (t : Fin cfg0.N) (p : Fin 32) (q : Fin 512) (b : Fin 64) (hb : b.val = 32 * t.val + p.val) :
    (iblk m c 1 t : Vec Ideal S32x512 .f32) (ix2 p q) = argY m c (ix2 b q) := by
  obtain ⟨-, -, e0, e1, -⟩ := index_facts t
  unfold iblk
  rw [View.read_apply]
  show V m c main_arg1 _ = _
  rw [V_main_arg1]
  refine congrArg (argY m c) ?_
  funext a
  apply Fin.ext
  match a with
  | ⟨0, _⟩ => show win0_1.index t (0 : Fin 2) * 32 + 1 * p.val = b.val; rw [e0, hb]; omega
  | ⟨1, _⟩ => show win0_1.index t (1 : Fin 2) * 512 + 1 * q.val = q.val; rw [e1]; omega

/-- A is read whole at every point. -/
theorem blockA_apply (c : Dev nD) (t : Fin cfg0.N) (q : Fin 512) (n : Fin 1024) :
    (iblk m c 2 t : Vec Ideal S512x1024 .f32) (ix2 q n) = argA m c (ix2 q n) := by
  obtain ⟨-, -, -, -, e0, e1, -⟩ := index_facts t
  unfold iblk
  rw [View.read_apply]
  show V m c main_arg2 _ = _
  rw [V_main_arg2]
  refine congrArg (argA m c) ?_
  funext a
  apply Fin.ext
  match a with
  | ⟨0, _⟩ => show win0_2.index t (0 : Fin 2) * 512 + 1 * q.val = q.val; rw [e0]; omega
  | ⟨1, _⟩ => show win0_2.index t (1 : Fin 2) * 1024 + 1 * n.val = n.val; rw [e1]; omega

/-- The weight row is read whole at every point. -/
theorem blockW_apply (c : Dev nD) (t : Fin cfg0.N) (n : Fin 1024) :
    (iblk m c 3 t : Vec Ideal S1x1024 .f32) (ix2 (0 : Fin 1) n) = argW m c (ix1 n) := by
  obtain ⟨-, -, -, -, -, -, e0, e1, -⟩ := index_facts t
  unfold iblk
  rw [View.read_apply]
  show V m c main_v1 _ = _
  refine (congrArg (V m c main_v1 : S1x1024.Idx → EReal) (?_ : _ = ix2 (0 : Fin 1) n)).trans (entry_Wrow m c n)
  funext a
  apply Fin.ext
  match a with
  | ⟨0, _⟩ => show win0_3.index t (0 : Fin 2) * 1 + 1 * 0 = 0; rw [e0]
  | ⟨1, _⟩ => show win0_3.index t (1 : Fin 2) * 1024 + 1 * n.val = n.val; rw [e1]; omega

/-! ## What a point writes back, the cover, the final array -/

/-- The stored block over blocks whose rows are the samples `row p`: entry (p, n) is the result's entry (n, row p). -/
theorem stored_apply (X : S1024x64.Idx → EReal) (Y : S64x512.Idx → EReal) (A : S512x1024.Idx → EReal) (W : S1024.Idx → EReal)
    (x0 : Vec Ideal S32x1024 .f32) (x1 : Vec Ideal S32x512 .f32) (x2 : Vec Ideal S512x1024 .f32) (x3 : Vec Ideal S1x1024 .f32)
    (row : Fin 32 → Fin 64)
    (h0 : ∀ (p : Fin 32) (k : Fin 1024), x0 (ix2 p k) = X (ix2 k (row p)))
    (h1 : ∀ (p : Fin 32) (q : Fin 512), x1 (ix2 p q) = Y (ix2 (row p) q))
    (h2 : ∀ (q : Fin 512) (n : Fin 1024), x2 (ix2 q n) = A (ix2 q n))
    (h3 : ∀ n : Fin 1024, x3 (ix2 (0 : Fin 1) n) = W (ix1 n))
    (p : Fin 32) (n : Fin 1024) :
    out0_4 (F := Ideal) x0 x1 x2 x3 (ix2 p n) = result X Y A W (ix2 n (row p)) := by
  rw [block_apply, result_apply]
  simp only [h0, h1, h2, h3]

/-- WHAT POINT t WRITES BACK is block t of `rows`. -/
theorem flushed_eq (c : Dev nD) (t : Fin cfg0.N) :
    (dats m 0 c).flushed 4 t = ((cfg0.win 4).blk t).view.read (Elt Ideal) (rows m c) := by
  have hN : cfg0.N = 2 := N_0
  have ht : t.val < 2 := by have := t.isLt; omega
  obtain ⟨-, -, -, -, -, -, -, -, e0, e1⟩ := index_facts t
  show (cfg0.win 4).cut (grid0.coords t) ((dats m 0 c).after 4 t) = _
  rw [after0_4]
  refine funext fun (y : S32x1024.Idx) => ?_
  show out0_4 (F := Ideal) (iblk m c 0 t) (iblk m c 1 t) (iblk m c 2 t) (iblk m c 3 t) y
      = rows m c (((cfg0.win 4).blk t).view.emb y)
  obtain ⟨p, n, rfl⟩ : ∃ (p : Fin 32) (n : Fin 1024), y = ix2 p n := ⟨y 0, y 1, eq_ix2 y⟩
  refine (stored_apply (argX m c) (argY m c) (argA m c) (argW m c) (iblk m c 0 t) (iblk m c 1 t) (iblk m c 2 t) (iblk m c 3 t)
    (fun p => ⟨32 * t.val + p.val, by have := p.isLt; omega⟩)
    (fun p k => blockX_apply m c t p k _ rfl) (fun p q => blockY_apply m c t p q _ rfl)
    (fun q n => blockA_apply m c t q n) (fun n => blockW_apply m c t n) p n).trans ?_
  unfold rows
  refine congrArg (result (argX m c) (argY m c) (argA m c) (argW m c)) ?_
  funext a
  apply Fin.ext
  match a with
  | ⟨0, _⟩ => show n.val = win0_4.index t (1 : Fin 2) * 1024 + 1 * n.val; rw [e1]; omega
  | ⟨1, _⟩ => show 32 * t.val + p.val = win0_4.index t (0 : Fin 2) * 32 + 1 * p.val; rw [e0]; omega

/-- An index of the [64, 1024] array is in point t's block iff its row is one of the block's 32. -/
theorem mem_block (t : Fin cfg0.N) (i : S64x1024.Idx) :
    i ∈ ((cfg0.win 4).blk t).view.set ↔ ∀ a : Fin 2, win0_4.index t a * S32x1024.size a ≤ (i a).val
      ∧ (i a).val < win0_4.index t a * S32x1024.size a + S32x1024.size a := by
  show i ∈ ((View.whole main_v2).slice (win0_4.rect t)).set ↔ _
  rw [View.set_slice_whole, Rect.mem_set_unit]
  exact Iff.rfl

/-- Every row is in the block of the point that handles it. -/
theorem covered (i : S64x1024.Idx) : ∃ t : Fin cfg0.N, (cfg0.win 4).flush t = true ∧ i ∈ ((cfg0.win 4).blk t).view.set := by
  have hN : cfg0.N = 2 := N_0
  have hi0 : (i 0).val < 64 := (i 0).isLt
  have hi1 : (i 1).val < 1024 := (i 1).isLt
  refine ⟨⟨(i 0).val / 32, by omega⟩, flush0_4 _, ?_⟩
  obtain ⟨-, -, -, -, -, -, -, -, e0, e1⟩ := index_facts ⟨(i 0).val / 32, by omega⟩
  rw [mem_block]
  intro a
  match a with
  | ⟨0, _⟩ =>
    show win0_4.index ⟨(i 0).val / 32, _⟩ (0 : Fin 2) * 32 ≤ (i 0).val
      ∧ (i 0).val < win0_4.index ⟨(i 0).val / 32, _⟩ (0 : Fin 2) * 32 + 32
    rw [e0]; show (i 0).val / 32 * 32 ≤ (i 0).val ∧ (i 0).val < (i 0).val / 32 * 32 + 32; omega
  | ⟨1, _⟩ =>
    show win0_4.index ⟨(i 0).val / 32, _⟩ (1 : Fin 2) * 1024 ≤ (i 1).val
      ∧ (i 1).val < win0_4.index ⟨(i 0).val / 32, _⟩ (1 : Fin 2) * 1024 + 1024
    rw [e1]; omega

/-- THE REGION'S OUTPUT ARRAY after the run. -/
theorem final_rows (c : Dev nD) : (dats m 0 c).arrAt 4 cfg0.N = rows m c :=
  (dats m 0 c).arrAt_eq_of_cover 4 (rows m c) (fun t _ => flushed_eq m c t) (covered)

end Cert.KernelIdeal.ArrayValue

end
-- ==== Proof.KernelRun.lean ====
/-
  The idealized kernel's run, read: its result buffer ends holding the specification's result array.

  After the region its output array holds `rows` (entry (b, n) = the result's entry (n, b)); the one host operation after the
  region transposes it into the result buffer, so that buffer ends holding the result array itself. The argument arrays end as
  launched.
-/
import proofs.«129881_j23270132810499_2_alg».proof.Proof.Gen.KernelIdeal.Frame
import proofs.«129881_j23270132810499_2_alg».proof.Proof.KernelArray
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.SoftTopMask

variable (m : (ℓ : Loc nD τ sig) → Buf (Elt Ideal) ℓ) (ρ : Dev nD → PrngReg)

/-- The result buffer after the transposition that follows the region. -/
theorem tail_result (c : Dev nD) :
    Pipeline.afterTail₀ cfgs (dats m) 0 (V0 m) [hostOps1] c main_v3
      = result (argX m c) (argY m c) (argA m c) (argW m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = rows m c :=
    (Pipeline.withArrays_arr spec0 launch0.win.arr_inj c _ _ 4).trans (final_rows m c)
  rw [e]
  funext j
  obtain ⟨n, b, rfl⟩ : ∃ (n : Fin 1024) (b : Fin 64), j = ix2 n b := ⟨j 0, j 1, eq_ix2 j⟩
  exact (transpose_apply [1, 0] (rows m c) _ (ix2 n b) (ix2 b n) (fun a => match a with
    | ⟨0, _⟩ => rfl
    | ⟨1, _⟩ => rfl)).trans rfl

/-- THE RUN: every weakly fair execution terminates with the result buffer at the result array of the launched arguments, and
    the arguments unchanged. -/
theorem run : θ_run defs (onTc (τ := τ) (main (F := Ideal))) ⟨m, fun _ => 0, ρ⟩ fun r => ∀ c : Dev nD,
      r.2.mem ((c.tc : Thread nD τ).loc main_v3) = result (argX m c) (argY m c) (argA m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.ArrayValue

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.RefValue.lean ====
/-
  The reference program's result, read stage by stage, is the specification's result array.

  Each lemma below reads one stage of the reference at an index given by its coordinates and identifies it with the
  matching function of the specification for one sample (a column of X, the matching row of Y):
  the gradient step, the scores, the spreads, the rank coefficients, the logits, their maximum, the exponential
  weights, their normalisation, the mask and the product with the gradient step.
  Only commutativity of the product of extended reals is used; no distributivity, and no word other than the zero
  word is evaluated.
-/
import proofs.«129881_j23270132810499_2_alg».proof.Proof.Gen.ReferenceIdeal.Read
import proofs.«129881_j23270132810499_2_alg».proof.Proof.Spec
import proofs.«129881_j23270132810499_2_alg».proof.Proof.LibMaxMinFold
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.SoftTopMask Idealize.ShloMosaic
  Idealize.ShloMosaic.ValueIdx

section Stages

variable (X : (⟨S1024x64, .f32⟩ : BufTy).Contents (Elt Ideal)) (Y : (⟨S64x512, .f32⟩ : BufTy).Contents (Elt Ideal))
  (A : (⟨S512x1024, .f32⟩ : BufTy).Contents (Elt Ideal)) (W : (⟨S1024, .f32⟩ : BufTy).Contents (Elt Ideal))

/-- The measurement matrix as a function of its two coordinates. -/
abbrev mat : Fin 512 → Fin 1024 → EReal := fun m n => A (ix2 m n)
/-- The weights as a function of the position. -/
abbrev wts : Fin 1024 → EReal := fun n => W (ix1 n)
/-- Sample `b`'s column of X. -/
abbrev col (b : Fin 64) : Fin 1024 → EReal := fun k => X (ix2 k b)
/-- Sample `b`'s row of Y. -/
abbrev row (b : Fin 64) : Fin 512 → EReal := fun m => Y (ix2 b m)
/-- Sample `b`'s gradient step. -/
abbrev hh (b : Fin 64) : Fin 1024 → EReal := grad (mat A) (col X b) (row Y b)
/-- Sample `b`'s scores. -/
abbrev zz (b : Fin 64) : Fin 1024 → EReal := score (wts W) (hh X Y A b)
/-- Sample `b`'s spreads. -/
abbrev cc (b : Fin 64) : Fin 1024 → EReal := spread (zz X Y A W b)

/-! ## The gradient step -/

/-- Aᵀ(AX) at (n, b): the sum over m of (Σ_k x[k]·A[m,k])·A[m,n]. -/
theorem v2_at (n : Fin 1024) (b : Fin 64) :
    val_main_v2 (F := Ideal) X A (ix2 n b)
      = ∑ m : Fin 512, (∑ k : Fin 1024, col X b k * mat A m k) * mat A m n := by
  rw [val_main_v2_apply]
  refine Finset.sum_congr rfl fun m _ => ?_
  rw [val_main_v0_apply, val_main_v1_apply]
  have e0 : idx_main_v0 (lidx_main_v2 (ix2 n b) m) = ix2 m n :=
    funext fun a => Fin.ext (by match a with | ⟨0, _⟩ => rfl | ⟨1, _⟩ => rfl)
  rw [e0, mul_comm]
  refine congrArg (· * A (ix2 m n)) (Finset.sum_congr rfl fun k _ => ?_)
  have e1 : lidx_main_v1 (ridx_main_v2 (ix2 n b) m) k = ix2 m k :=
    funext fun a => Fin.ext (by match a with | ⟨0, _⟩ => rfl | ⟨1, _⟩ => rfl)
  have e2 : ridx_main_v1 (ridx_main_v2 (ix2 n b) m) k = ix2 k b :=
    funext fun a => Fin.ext (by match a with | ⟨0, _⟩ => rfl | ⟨1, _⟩ => rfl)
  rw [e1, e2, mul_comm]

/-- AᵀYᵀ at (n, b): the sum over m of y[m]·A[m,n]. -/
theorem v8_at (n : Fin 1024) (b : Fin 64) :
    val_main_v8 (F := Ideal) Y A (ix2 n b) = ∑ m : Fin 512, row Y b m * mat A m n := by
  rw [val_main_v8_apply]
  refine Finset.sum_congr rfl fun m _ => ?_
  rw [val_main_v6_apply, val_main_v7_apply]
  have e0 : idx_main_v6 (lidx_main_v8 (ix2 n b) m) = ix2 m n :=
    funext fun a => Fin.ext (by match a with | ⟨0, _⟩ => rfl | ⟨1, _⟩ => rfl)
  have e1 : idx_main_v7 (ridx_main_v8 (ix2 n b) m) = ix2 b m :=
    funext fun a => Fin.ext (by match a with | ⟨0, _⟩ => rfl | ⟨1, _⟩ => rfl)
  rw [e0, e1, mul_comm]

/-- The gradient step at (n, b). -/
theorem v11_at (n : Fin 1024) (b : Fin 64) :
    val_main_v11 (F := Ideal) X Y A (ix2 n b) = hh X Y A b n := by
  rw [val_main_v11_apply, val_main_v5_apply, val_main_v4_apply, val_main_v3_apply, val_main_cst_apply,
    val_main_v10_apply, val_main_v9_apply, val_main_cst_0_apply, v2_at, v8_at]
  rfl

/-! ## The scores and their spreads -/

/-- The weighted step at (n, b). -/
theorem v14_at (n : Fin 1024) (b : Fin 64) :
    val_main_v14 (F := Ideal) X Y A W (ix2 n b) = wts W n * hh X Y A b n := by
  rw [val_main_v14_apply, val_main_v13_apply, val_main_v12_apply, v11_at]
  have e : idx_main_v12 (idx_main_v13 (ix2 n b)) = ix1 n :=
    funext fun a => Fin.ext (by match a with | ⟨0, _⟩ => rfl)
  rw [e]
  rfl

/-- The scores at (b, n): the absolute value of the weighted step. -/
theorem v16_at (b : Fin 64) (n : Fin 1024) :
    val_main_v16 (F := Ideal) X Y A W (ix2 b n) = zz X Y A W b n := by
  rw [val_main_v16_apply]
  have e : idx_main_v16 (ix2 b n) = ix2 n b :=
    funext fun a => Fin.ext (by match a with | ⟨0, _⟩ => rfl | ⟨1, _⟩ => rfl)
  rw [e, val_main_v15_apply, v14_at, Ideal.hostAbsf_def, Ideal.absf_def]
  rfl

/-- The absolute difference of two scores at (b, i, j). -/
theorem v22_at (b : Fin 64) (i j : Fin 1024) :
    val_main_v22 (F := Ideal) X Y A W (ix3 b i j)
      = max (zz X Y A W b i - zz X Y A W b j) (-(zz X Y A W b i - zz X Y A W b j)) := by
  rw [val_main_v22_apply, val_main_v21_apply, val_main_v19_apply, val_main_v17_apply, val_main_v20_apply,
    val_main_v18_apply]
  have e0 : idx_main_v17 (idx_main_v19 (ix3 b i j)) = ix2 b i :=
    funext fun a => Fin.ext (by match a with | ⟨0, _⟩ => rfl | ⟨1, _⟩ => rfl)
  have e1 : idx_main_v18 (idx_main_v20 (ix3 b i j)) = ix2 b j :=
    funext fun a => Fin.ext (by match a with | ⟨0, _⟩ => rfl | ⟨1, _⟩ => rfl)
  rw [e0, e1, v16_at, v16_at, Ideal.hostAbsf_def, Ideal.absf_def]
  rfl

/-- The spreads at (b, i): the sum over j of the absolute differences, the zero word added in front. -/
theorem v23_at (b : Fin 64) (i : Fin 1024) :
    val_main_v23 (F := Ideal) X Y A W (ix2 b i) = cc X Y A W b i := by
  rw [val_main_v23_apply, val_main_cst_1_apply, Ideal.ofBits_def, Ideal.ofBits_zero_f32, zero_add]
  refine Finset.sum_congr rfl fun j _ => ?_
  have e : idx_main_v23 (ix2 b i) j = ix3 b i j :=
    funext fun a => Fin.ext (by match a with | ⟨0, _⟩ => rfl | ⟨1, _⟩ => rfl | ⟨2, _⟩ => rfl)
  rw [e, v22_at]

/-! ## The rank coefficients -/

/-- The 32-bit integer 1025 − 2·(1 + s) does not wrap for a rank s below 50. -/
theorem coeff_int : ∀ s : Fin 50,
    (IntOp.subi 1025#32 (IntOp.muli 2#32 (IntOp.addi 1#32 (BitVec.ofNat 32 s.val)))).toInt
      = 1025 - 2 * ((s.val : ℤ) + 1) := by
  decide

/-- The rank coefficient at s, an integer read as a real. -/
theorem v31_at (s : Fin 50) : val_main_v31 (F := Ideal) (ix1 s) = coeff s := by
  rw [val_main_v31_apply, val_main_v30_apply, val_main_v29_apply, val_main_c_3_apply, val_main_v28_apply,
    val_main_v27_apply, val_main_c_2_apply, val_main_v26_apply, val_main_v25_apply, val_main_c_apply,
    val_main_v24_apply]
  show (((IntOp.subi 1025#32 (IntOp.muli 2#32 (IntOp.addi 1#32 (BitVec.ofNat 32 s.val)))).toInt : ℝ) : EReal) = coeff s
  rw [coeff_int s]
  rfl

/-! ## The logits and their maximum -/

/-- The logits at (b, s, i). -/
theorem v41_at (b : Fin 64) (s : Fin 50) (i : Fin 1024) :
    val_main_v41 (F := Ideal) X Y A W (ix3 b s i) = logit (zz X Y A W b) (cc X Y A W b) s i := by
  rw [val_main_v41_apply, val_main_v39_apply, val_main_v36_apply, val_main_v34_apply, val_main_v32_apply,
    val_main_v35_apply, val_main_v33_apply, val_main_v38_apply, val_main_v37_apply, val_main_v40_apply,
    val_main_cst_4_apply]
  have e0 : idx_main_v32 (idx_main_v34 (ix3 b s i)) = ix1 s :=
    funext fun a => Fin.ext (by match a with | ⟨0, _⟩ => rfl)
  have e1 : idx_main_v33 (idx_main_v35 (ix3 b s i)) = ix2 b i :=
    funext fun a => Fin.ext (by match a with | ⟨0, _⟩ => rfl | ⟨1, _⟩ => rfl)
  have e2 : idx_main_v37 (idx_main_v38 (ix3 b s i)) = ix2 b i :=
    funext fun a => Fin.ext (by match a with | ⟨0, _⟩ => rfl | ⟨1, _⟩ => rfl)
  rw [e0, e1, e2, v31_at, v16_at, v23_at]
  rfl

/-- The maximum of the logits over the positions at (b, s), started from −∞. -/
theorem v42_at (b : Fin 64) (s : Fin 50) :
    val_main_v42 (F := Ideal) X Y A W (ix2 b s) = top (zz X Y A W b) (cc X Y A W b) s := by
  unfold val_main_v42
  refine (Cert.MaxMinFold.hostReduce_maximumf_single (val_main_v41 (F := Ideal) X Y A W) (val_main_cst_5 (F := Ideal))
    reducesTo_S64x50x1024_S64x50_d2 (by decide) h_S_ (ix2 b s)).trans ?_
  rw [val_main_cst_5_apply]
  refine Finset.fold_congr fun i _ => ?_
  have e : Shape.Reduces.lift (s := S64x50x1024) (t := S64x50) (a := 2) (by decide) (ix2 b s) i = ix3 b s i :=
    funext fun a => Fin.ext (by match a with | ⟨0, _⟩ => rfl | ⟨1, _⟩ => rfl | ⟨2, _⟩ => rfl)
  exact (congrArg (val_main_v41 (F := Ideal) X Y A W) e).trans (v41_at X Y A W b s i)

/-- Taking the maximum with −∞ once more changes nothing: −∞ is already below the fold started from it. -/
theorem v44_at (b : Fin 64) (s : Fin 50) :
    val_main_v44 (F := Ideal) X Y A W (ix2 b s) = top (zz X Y A W b) (cc X Y A W b) s := by
  rw [val_main_v44_apply, val_main_v43_apply, val_main_cst_6_apply, v42_at, Ideal.maximumf_def]
  exact max_eq_right ((Finset.le_fold_max _).2 (Or.inl le_rfl))

/-! ## The weights, their normalisation and the mask -/

/-- The exponential weights at (b, s, i). -/
theorem v48_at (b : Fin 64) (s : Fin 50) (i : Fin 1024) :
    val_main_v48 (F := Ideal) X Y A W (ix3 b s i) = weight (zz X Y A W b) (cc X Y A W b) s i := by
  rw [val_main_v48_apply, val_main_v47_apply, val_main_v46_apply, val_main_v45_apply, v41_at]
  have e : idx_main_v45 (idx_main_v46 (ix3 b s i)) = ix2 b s :=
    funext fun a => Fin.ext (by match a with | ⟨0, _⟩ => rfl | ⟨1, _⟩ => rfl)
  rw [e, v44_at]
  rfl

/-- The sum of the weights over the positions at (b, s), the zero word added in front. -/
theorem v49_at (b : Fin 64) (s : Fin 50) :
    val_main_v49 (F := Ideal) X Y A W (ix2 b s) = ∑ i' : Fin 1024, weight (zz X Y A W b) (cc X Y A W b) s i' := by
  rw [val_main_v49_apply, val_main_cst_7_apply, Ideal.ofBits_def, Ideal.ofBits_zero_f32, zero_add]
  refine Finset.sum_congr rfl fun i _ => ?_
  have e : idx_main_v49 (ix2 b s) i = ix3 b s i :=
    funext fun a => Fin.ext (by match a with | ⟨0, _⟩ => rfl | ⟨1, _⟩ => rfl | ⟨2, _⟩ => rfl)
  rw [e, v48_at]

/-- The normalised weights at (b, s, i). -/
theorem v52_at (b : Fin 64) (s : Fin 50) (i : Fin 1024) :
    val_main_v52 (F := Ideal) X Y A W (ix3 b s i)
      = Ideal.div (weight (zz X Y A W b) (cc X Y A W b) s i) (∑ i' : Fin 1024, weight (zz X Y A W b) (cc X Y A W b) s i') := by
  rw [val_main_v52_apply, val_main_v51_apply, val_main_v50_apply, v48_at]
  have e : idx_main_v50 (idx_main_v51 (ix3 b s i)) = ix2 b s :=
    funext fun a => Fin.ext (by match a with | ⟨0, _⟩ => rfl | ⟨1, _⟩ => rfl)
  rw [e, v49_at]
  rfl

/-- The mask at (b, i): the normalised weights summed over the ranks, the zero word added in front. -/
theorem v53_at (b : Fin 64) (i : Fin 1024) :
    val_main_v53 (F := Ideal) X Y A W (ix2 b i) = mask (zz X Y A W b) (cc X Y A W b) i := by
  rw [val_main_v53_apply, val_main_cst_8_apply, Ideal.ofBits_def, Ideal.ofBits_zero_f32, zero_add]
  refine Finset.sum_congr rfl fun s _ => ?_
  have e : idx_main_v53 (ix2 b i) s = ix3 b s i :=
    funext fun a => Fin.ext (by match a with | ⟨0, _⟩ => rfl | ⟨1, _⟩ => rfl | ⟨2, _⟩ => rfl)
  rw [e, v52_at]

/-! ## The result -/

/-- The result at (n, b): the mask times the gradient step. -/
theorem v55_at (n : Fin 1024) (b : Fin 64) :
    val_main_v55 (F := Ideal) X Y A W (ix2 n b) = sample (mat A) (wts W) (col X b) (row Y b) n := by
  rw [val_main_v55_apply, val_main_v54_apply, v11_at]
  have e : idx_main_v54 (ix2 n b) = ix2 b n :=
    funext fun a => Fin.ext (by match a with | ⟨0, _⟩ => rfl | ⟨1, _⟩ => rfl)
  rw [e, v53_at]
  rfl

end Stages

open Cert.ReferenceIdeal Cert.ReferenceIdeal.Read in
/-- The reference's result array is the specification's: entry (n, b) is sample b's result at position n. -/
theorem result_eq (X : (⟨S1024x64, .f32⟩ : BufTy).Contents (Elt Ideal)) (Y : (⟨S64x512, .f32⟩ : BufTy).Contents (Elt Ideal))
    (A : (⟨S512x1024, .f32⟩ : BufTy).Contents (Elt Ideal)) (W : (⟨S1024, .f32⟩ : BufTy).Contents (Elt Ideal)) :
    val_main_v55 (F := Ideal) X Y A W = Cert.SoftTopMask.result X Y A W := by
  funext j
  obtain ⟨n, b, rfl⟩ : ∃ (n : Fin 1024) (b : Fin 64), j = ix2 n b := ⟨j 0, j 1, eq_ix2 j⟩
  exact (v55_at X Y A W n b).trans (Cert.SoftTopMask.result_apply X Y A W n b).symm

end Cert.ReferenceIdeal.RefValue

end
-- ==== Proof.lean ====
/-
  The certificate: a gradient step followed by a soft top-s mask, as a TPU kernel against its jnp reference.

  Both programs compute, for each of 64 samples (a column x of X, the matching row y of Y) with the matrix A and the weights w:
  the step h = x − η·Aᵀ(A x) + η·Aᵀ y, the scores z = |w·h|, the spreads c[i] = Σ_j |z[i] − z[j]|, for each rank s < 50 the
  softmax over the positions of ((1025 − 2(s+1))·z − c)/τ, the mask Σ_s of those softmaxes, and mask·h. At the extended reals
  they differ only by: the order of the two factors inside the matrix products (commutativity of ·); the spreads summed in
  eight runs of 128 positions from zero against one sum over 1024 (regrouping a sum); one more maximum with −∞ in the reference's
  softmax (−∞ is below every maximum started from it); the rank coefficients formed in floats from the exact words 1025.0 and 2.0
  against 32-bit integers converted afterwards (no wrap below 50); and the layout (the kernel works on X transposed, 32 samples a
  grid point, and transposes back). None of these needs the inputs to be finite, so the precondition is never opened.

  The three frames are the generated ones (the reference's is its generated run with the result dropped). The ideal pass rewrote
  nothing, so the idealization claim is `True`. The algebraic claim joins the kernel's run, re-posted at the specification's result
  array (Proof/KernelRun.lean, over the per-sample values of Proof/KernelStep.lean, KernelSpread.lean, KernelMask.lean,
  KernelSample.lean and the blocks of KernelArray.lean), with the reference's generated run read stage by stage as the same array
  (Proof/RefValue.lean).
-/
import proofs.«129881_j23270132810499_2_alg».proof.Defs
import proofs.«129881_j23270132810499_2_alg».proof.Proof.Gen.Kernel
import proofs.«129881_j23270132810499_2_alg».proof.Proof.Gen.Kernel.Skeleton
import proofs.«129881_j23270132810499_2_alg».proof.Proof.Gen.Kernel.Launch
import proofs.«129881_j23270132810499_2_alg».proof.Proof.Gen.Kernel.Points
import proofs.«129881_j23270132810499_2_alg».proof.Proof.Gen.Kernel.Frame
import proofs.«129881_j23270132810499_2_alg».proof.Proof.Gen.KernelIdeal
import proofs.«129881_j23270132810499_2_alg».proof.Proof.Gen.KernelIdeal.Skeleton
import proofs.«129881_j23270132810499_2_alg».proof.Proof.Gen.KernelIdeal.Launch
import proofs.«129881_j23270132810499_2_alg».proof.Proof.Gen.KernelIdeal.Points
import proofs.«129881_j23270132810499_2_alg».proof.Proof.Gen.KernelIdeal.Frame
import proofs.«129881_j23270132810499_2_alg».proof.Proof.Gen.ReferenceIdeal
import proofs.«129881_j23270132810499_2_alg».proof.Proof.Gen.Pre_finite_inputs
import proofs.«129881_j23270132810499_2_alg».proof.Proof.Gen.ReferenceIdeal.Run
import proofs.«129881_j23270132810499_2_alg».proof.Proof.Gen.ReferenceIdeal.Read
import proofs.«129881_j23270132810499_2_alg».proof.Proof.KernelRun
import proofs.«129881_j23270132810499_2_alg».proof.Proof.RefValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result buffer at the specification's result array of
    those arguments. -/
theorem algebraic : Cert.algebraic_KernelIdeal_ReferenceIdeal := by
  intro m ρ m' ρ' _ hagree
  refine ⟨fun c => Cert.SoftTopMask.result (Cert.KernelIdeal.ArrayValue.argX m c) (Cert.KernelIdeal.ArrayValue.argY m c)
    (Cert.KernelIdeal.ArrayValue.argA m c) (Cert.KernelIdeal.ArrayValue.argW m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
